-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x64 : Shape := ⟨2, ![4096, 64]⟩
abbrev S64 : Shape := ⟨1, ![64]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x4096x4096 .f32) (main_arg1 : FVec F S4096x64 .f32) (main_arg2 : FVec F S64 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x4096x4096 : Shape := ⟨3, ![4, 4096, 4096]⟩
abbrev S4096x64 : Shape := ⟨2, ![4096, 64]⟩
abbrev S64 : Shape := ⟨1, ![64]⟩
abbrev S_ : Shape := ⟨0, ![]⟩
abbrev S1x64 : Shape := ⟨2, ![1, 64]⟩
abbrev S4x4096x64 : Shape := ⟨3, ![4, 4096, 64]⟩
abbrev S1x256x4096 : Shape := ⟨3, ![1, 256, 4096]⟩
abbrev S1x256x64 : Shape := ⟨3, ![1, 256, 64]⟩
abbrev S256x4096 : Shape := ⟨2, ![256, 4096]⟩
abbrev S256 : Shape := ⟨1, ![256]⟩
abbrev S256x1 : Shape := ⟨2, ![256, 1]⟩
abbrev S256x64 : Shape := ⟨2, ![256, 64]⟩

abbrev nBuf : Space → Nat
  | .hbm => 18
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S4096x64, .f32⟩
  | .hbm, ⟨2, _⟩ => ⟨S64, .f32⟩
  | .hbm, ⟨3, _⟩ => ⟨S4096x64, .f32⟩
  | .hbm, ⟨4, _⟩ => ⟨S_, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S_, .f32⟩
  | .hbm, ⟨9, _⟩ => ⟨S1x64, .f32⟩
  | .hbm, ⟨10, _⟩ => ⟨S1x64, .f32⟩
  | .hbm, ⟨11, _⟩ => ⟨S4096x64, .f32⟩
  | .hbm, ⟨12, _⟩ => ⟨S4096x64, .f32⟩
  | .hbm, ⟨13, _⟩ => ⟨S4096x64, .bf16⟩
  | .hbm, ⟨14, _⟩ => ⟨S1x64, .f32⟩
  | .hbm, ⟨15, _⟩ => ⟨S4x4096x64, .f32⟩
  | .hbm, ⟨16, _⟩ => ⟨S4x4096x64, .f32⟩
  | .hbm, ⟨17, _⟩ => ⟨S4x4096x64, .f32⟩
  | .local _ .vmem, ⟨0, _⟩ => ⟨S1x256x4096, .f32⟩
  | .local _ .vmem, ⟨1, _⟩ => ⟨S1x256x4096, .f32⟩
  | .local _ .vmem, ⟨2, _⟩ => ⟨S4096x64, .bf16⟩
  | .local _ .vmem, ⟨3, _⟩ => ⟨S1x64, .f32⟩
  | .local _ .vmem, ⟨4, _⟩ => ⟨S1x256x64, .f32⟩
  | .local _ .vmem, ⟨5, _⟩ => ⟨S1x256x64, .f32⟩
  | .local _ .vmem, ⟨6, _⟩ => ⟨S1x256x64, .f32⟩
  | .local _ .vmem, ⟨7, _⟩ => ⟨S1x256x64, .f32⟩
  | .local _ .vmem, ⟨8, _⟩ => ⟨S1x256x64, .f32⟩
  | .local _ .vmem, ⟨9, _⟩ => ⟨S1x256x64, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S4096x64_S64_d0 : S4096x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S4096x64_0_1 : S1x64.BroadcastsInDim S4096x64 (![0, 1] : Fin 2 → Fin S4096x64.rank)
  bitsLt_bf16_f32 : FTy.bits .bf16 < FTy.bits .f32
  shapeCasts_S64_S1x64 : S64.ShapeCasts S1x64
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  broadcasts_S256x1_S256x4096 : S256x1.Broadcasts S256x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x4096x4096.size a
  hwx0_0 : ∀ i : grid0.Coords, EltTy.bits .f32 = 32 ∨ (Rect.block (s := S4x4096x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .bf16 = 32 ∨ (Rect.block (s := S4096x64) S4096x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S4x4096x64.size a
  hwx0_3 : ∀ i : grid0.Coords, EltTy.bits .f32 = 32 ∨ (Rect.block (s := S4x4096x64) S1x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S4x4096x64.size a
  hwx0_4 : ∀ i : grid0.Coords, EltTy.bits .f32 = 32 ∨ (Rect.block (s := S4x4096x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x64.size a ≤ S4x4096x64.size a
  hwx0_5 : ∀ i : grid0.Coords, EltTy.bits .f32 = 32 ∨ (Rect.block (s := S4x4096x64) S1x256x64.size (cc0_transform_5 i) (hinb0_5 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_2) S1x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x64 : Shape := ⟨2, ![4096, 64]⟩
abbrev S64 : Shape := ⟨1, ![64]⟩
abbrev S_ : Shape := ⟨0, ![]⟩
abbrev S4x4096 : Shape := ⟨2, ![4, 4096]⟩
abbrev S4x4096x1 : Shape := ⟨3, ![4, 4096, 1]⟩
abbrev S1x64 : Shape := ⟨2, ![1, 64]⟩
abbrev S4x4096x64 : Shape := ⟨3, ![4, 4096, 64]⟩
abbrev S1x1x64 : Shape := ⟨3, ![1, 1, 64]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x64, .f32⟩
  | .hbm, ⟨2, _⟩ => ⟨S64, .f32⟩
  | .hbm, ⟨3, _⟩ => ⟨S4x4096x4096, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S4x4096x4096, .f32⟩
  | .hbm, ⟨12, _⟩ => ⟨S4x4096x4096, .f32⟩
  | .hbm, ⟨13, _⟩ => ⟨S4096x64, .f32⟩
  | .hbm, ⟨14, _⟩ => ⟨S_, .f32⟩
  | .hbm, ⟨15, _⟩ => ⟨S64, .f32⟩
  | .hbm, ⟨16, _⟩ => ⟨S1x64, .f32⟩
  | .hbm, ⟨17, _⟩ => ⟨S1x64, .f32⟩
  | .hbm, ⟨18, _⟩ => ⟨S_, .f32⟩
  | .hbm, ⟨19, _⟩ => ⟨S1x64, .f32⟩
  | .hbm, ⟨20, _⟩ => ⟨S1x64, .f32⟩
  | .hbm, ⟨21, _⟩ => ⟨S4096x64, .f32⟩
  | .hbm, ⟨22, _⟩ => ⟨S4096x64, .f32⟩
  | .hbm, ⟨23, _⟩ => ⟨S4x4096x64, .f32⟩
  | .hbm, ⟨24, _⟩ => ⟨S4x4096x64, .f32⟩
  | .hbm, ⟨25, _⟩ => ⟨S4x4096x64, .f32⟩
  | .hbm, ⟨26, _⟩ => ⟨S_, .f32⟩
  | .hbm, ⟨27, _⟩ => ⟨S4x4096x64, .f32⟩
  | .hbm, ⟨28, _⟩ => ⟨S4x4096x64, .f32⟩
  | .hbm, ⟨29, _⟩ => ⟨S_, .f32⟩
  | .hbm, ⟨30, _⟩ => ⟨S4x4096x64, .f32⟩
  | .hbm, ⟨31, _⟩ => ⟨S4x4096x64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S1x1x64, .f32⟩
  | .hbm, ⟨41, _⟩ => ⟨S4x4096x64, .f32⟩
  | .hbm, ⟨42, _⟩ => ⟨S4x4096x64, .f32⟩
  | .hbm, ⟨43, _⟩ => ⟨S_, .f32⟩
  | .hbm, ⟨44, _⟩ => ⟨S4x4096x64, .f32⟩
  | .hbm, ⟨45, _⟩ => ⟨S4x4096x64, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call2_cst : Ref sig .tc := ⟨.hbm, 43, rfl⟩
abbrev main_call2_v0 : Ref sig .tc := ⟨.hbm, 44, rfl⟩
abbrev main_v26 : Ref sig .tc := ⟨.hbm, 45, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  reducesTo_S4096x64_S64_d0 : S4096x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  bcast_S1x64_S4096x64_0_1 : S1x64.BroadcastsInDim S4096x64 (![0, 1] : Fin 2 → Fin S4096x64.rank)
  bcast_S_S4x4096x64 : S_.BroadcastsInDim S4x4096x64 (![] : Fin 0 → Fin S4x4096x64.rank)
  bcast_S_S64 : S_.BroadcastsInDim S64 (![] : Fin 0 → Fin S64.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  dot_S4x4096x4096_S4096x64_S4x4096x64_2_0_01_1_n_n_wf : DotDims.WF S4x4096x4096 S4096x64 S4x4096x64 [2] [0] [0, 1] [1] [] []

variable [Facts₀]

def dot_S4x4096x4096_S4096x64_S4x4096x64_2_0_01_1_n_n : DotDims S4x4096x4096 S4096x64 S4x4096x64 where
  lhsContracting := [2]
  rhsContracting := [0]
  lhsNonContracting := [0, 1]
  rhsNonContracting := [1]
  lhsBatch := []
  rhsBatch := []
  wf := dot_S4x4096x4096_S4096x64_S4x4096x64_2_0_01_1_n_n_wf

class Facts : Prop extends Facts₀ where

variable [Facts]
-- ==== Proof.GateSpec.lean ====
/-
  The function both programs compute, on the extended reals, index by index.

  A row of the hidden states (4096 numbers) and a column of the similarity matrix (4096 numbers) are each
  divided by their Euclidean length, the length clipped below by a small positive constant; the logit of
  (batch, position, expert) is the inner product of the two scaled vectors.  The second result is the
  logistic function of the logit, the third is that value minus the logistic function of the expert's gate,
  clipped below by zero.  Nothing here mentions a program: the shapes are literal and an index is built from
  its coordinates.
-/
import Idealize.ShloMosaic.PureOps.Ideal
import Idealize.ShloMosaic.Lib.ValueIdx

noncomputable section

open scoped BigOperators

namespace Cert.GateSpec

open Idealize.ShloMosaic Idealize.ShloMosaic.ValueIdx

/-- The lower clip of a length: the binary32 number nearest to 1e-12, read exactly. -/
def eps : EReal := Ideal.ofBits .f32 0x2B8CBCCC#32

/-- The Euclidean length of a vector of 4096 extended reals, clipped below by `eps`. -/
def clipLen (v : Fin 4096 → EReal) : EReal := max (Ideal.sqrt (∑ h : Fin 4096, v h * v h)) eps

/-- A vector divided, entry by entry, by its clipped length. -/
def unit (v : Fin 4096 → EReal) : Fin 4096 → EReal := fun h => Ideal.div (v h) (clipLen v)

/-- The inner product of two vectors of 4096 extended reals, summed in index order. -/
def dot (u v : Fin 4096 → EReal) : EReal := ∑ h : Fin 4096, u h * v h

/-- Row `(b, s)` of the hidden states. -/
def row (x : FVec Ideal ⟨3, ![4, 4096, 4096]⟩ .f32) (b : Fin 4) (s : Fin 4096) : Fin 4096 → EReal :=
  fun h => x (ix3 b s h)

/-- Column `e` of the similarity matrix. -/
def col (w : FVec Ideal ⟨2, ![4096, 64]⟩ .f32) (e : Fin 64) : Fin 4096 → EReal := fun h => w (ix2 h e)

/-- The logit of (batch, position, expert): the scaled row against the scaled column. -/
def logit (x : FVec Ideal ⟨3, ![4, 4096, 4096]⟩ .f32) (w : FVec Ideal ⟨2, ![4096, 64]⟩ .f32)
    (b : Fin 4) (s : Fin 4096) (e : Fin 64) : EReal :=
  dot (unit (row x b s)) (unit (col w e))

/-- First result: the logits. -/
def raw (x : FVec Ideal ⟨3, ![4, 4096, 4096]⟩ .f32) (w : FVec Ideal ⟨2, ![4096, 64]⟩ .f32) :
    FVec Ideal ⟨3, ![4, 4096, 64]⟩ .f32 := fun i => logit x w (i 0) (i 1) (i 2)

/-- Second result: the logistic function of each logit. -/
def scaled (x : FVec Ideal ⟨3, ![4, 4096, 4096]⟩ .f32) (w : FVec Ideal ⟨2, ![4096, 64]⟩ .f32) :
    FVec Ideal ⟨3, ![4, 4096, 64]⟩ .f32 := fun i => Ideal.logistic (raw x w i)

/-- Third result: the second minus the logistic function of the expert's gate, clipped below by zero
    (the zero kept as the word both programs write). -/
def act (x : FVec Ideal ⟨3, ![4, 4096, 4096]⟩ .f32) (w : FVec Ideal ⟨2, ![4096, 64]⟩ .f32)
    (g : FVec Ideal ⟨1, ![64]⟩ .f32) : FVec Ideal ⟨3, ![4, 4096, 64]⟩ .f32 :=
  fun i => max (scaled x w i - Ideal.logistic (g (ix1 (i 2)))) (Ideal.ofBits .f32 0x00000000#32)

end Cert.GateSpec

end
-- ==== Proof.GateRef.lean ====
/-
  The reference program computes the specified function.

  Read one operation at a time, its run divides each row of the hidden states and each column of the similarity
  matrix by its clipped Euclidean length (a sum of squares from a zero start, a square root, a maximum with the
  clip, a quotient), contracts the two over the 4096 shared entries, and then writes the logistic function out as
  1 / (1 + exp (-x)) with the constant one — which on the extended reals is the logistic function itself.
-/
import proofs.«150905_j54185307407176_1_alg».proof.Proof.Gen.ReferenceIdeal.Read
import proofs.«150905_j54185307407176_1_alg».proof.Proof.GateSpec
import Idealize.ShloMosaic.Lib.ValueIdx
import Idealize.ShloMosaic.PureOps.Ideal.Laws

noncomputable section

open scoped BigOperators

namespace Cert.GateRef

open Idealize.ShloMosaic Idealize.ShloMosaic.ValueIdx Cert.ReferenceIdeal Cert.ReferenceIdeal.Gen Cert.ReferenceIdeal.Read Cert.GateSpec

/-- The word of the constant one denotes the extended real 1. -/
theorem one_f32 : Ideal.ofBits .f32 0x3F800000#32 = 1 := IdealRules.sign_bit.ideal_onePat .f32

/-- The sum of squares of row (b, s): the zero start contributes nothing. -/
theorem sumSq_row (x0 : FVec Ideal S4x4096x4096 .f32) (b : Fin 4) (s : Fin 4096) :
    val_main_call0_v1 (F := Ideal) x0 (ix2 b s) = ∑ h : Fin 4096, x0 (ix3 b s h) * x0 (ix3 b s h) := by
  rw [val_main_call0_v1_apply]
  show Ideal.ofBits .f32 0x00000000#32 + _ = _
  rw [Ideal.ofBits_zero_f32, zero_add]
  refine Finset.sum_congr rfl fun k _ => ?_
  have e : idx_main_call0_v1 (ix2 b s) k = ix3 b s k :=
    funext fun a => Fin.ext (by match a with | ⟨0, _⟩ => rfl | ⟨1, _⟩ => rfl | ⟨2, _⟩ => rfl)
  rw [e]; rfl

/-- The clipped length of row (b, s), kept as a column entry. -/
theorem len_row (x0 : FVec Ideal S4x4096x4096 .f32) (b : Fin 4) (s : Fin 4096) :
    val_main_v2 (F := Ideal) x0 (ix3 b s (0 : Fin 1)) = clipLen (row x0 b s) := by
  show max (Ideal.sqrt (val_main_call0_v2 (F := Ideal) x0 (ix3 b s (0 : Fin 1)))) (val_main_v1 (F := Ideal) (ix3 b s (0 : Fin 1))) = _
  rw [val_main_call0_v2_apply, val_main_v1_apply]
  have e : idx_main_call0_v2 (ix3 b s (0 : Fin 1)) = ix2 b s :=
    funext fun a => Fin.ext (by match a with | ⟨0, _⟩ => rfl | ⟨1, _⟩ => rfl)
  rw [e, sumSq_row]
  rfl

/-- Row (b, s) divided by its clipped length, at entry h. -/
theorem unit_row (x0 : FVec Ideal S4x4096x4096 .f32) (b : Fin 4) (s : Fin 4096) (h : Fin 4096) :
    val_main_v4 (F := Ideal) x0 (ix3 b s h) = unit (row x0 b s) h := by
  show Ideal.div (x0 (ix3 b s h)) (val_main_v3 (F := Ideal) x0 (ix3 b s h)) = _
  rw [val_main_v3_apply]
  have e : idx_main_v3 (ix3 b s h) = ix3 b s (0 : Fin 1) :=
    funext fun a => Fin.ext (by match a with | ⟨0, _⟩ => rfl | ⟨1, _⟩ => rfl | ⟨2, _⟩ => rfl)
  rw [e, len_row]
  rfl

/-- The sum of squares of column e. -/
theorem sumSq_col (x1 : FVec Ideal S4096x64 .f32) (e : Fin 64) :
    val_main_call1_v1 (F := Ideal) x1 (ix1 e) = ∑ h : Fin 4096, x1 (ix2 h e) * x1 (ix2 h e) := by
  rw [val_main_call1_v1_apply]
  show Ideal.ofBits .f32 0x00000000#32 + _ = _
  rw [Ideal.ofBits_zero_f32, zero_add]
  refine Finset.sum_congr rfl fun k _ => ?_
  have e' : idx_main_call1_v1 (ix1 e) k = ix2 k e :=
    funext fun a => Fin.ext (by match a with | ⟨0, _⟩ => rfl | ⟨1, _⟩ => rfl)
  rw [e']; rfl

/-- The clipped length of column e, kept as a row entry. -/
theorem len_col (x1 : FVec Ideal S4096x64 .f32) (e : Fin 64) :
    val_main_v7 (F := Ideal) x1 (ix2 (0 : Fin 1) e) = clipLen (col x1 e) := by
  show max (Ideal.sqrt (val_main_call1_v2 (F := Ideal) x1 (ix2 (0 : Fin 1) e))) (val_main_v6 (F := Ideal) (ix2 (0 : Fin 1) e)) = _
  rw [val_main_call1_v2_apply, val_main_v6_apply]
  have e' : idx_main_call1_v2 (ix2 (0 : Fin 1) e) = ix1 e :=
    funext fun a => Fin.ext (by match a with | ⟨0, _⟩ => rfl)
  rw [e', sumSq_col]
  rfl

/-- Column e divided by its clipped length, at entry h. -/
theorem unit_col (x1 : FVec Ideal S4096x64 .f32) (h : Fin 4096) (e : Fin 64) :
    val_main_v9 (F := Ideal) x1 (ix2 h e) = unit (col x1 e) h := by
  show Ideal.div (x1 (ix2 h e)) (val_main_v8 (F := Ideal) x1 (ix2 h e)) = _
  rw [val_main_v8_apply]
  have e' : idx_main_v8 (ix2 h e) = ix2 (0 : Fin 1) e :=
    funext fun a => Fin.ext (by match a with | ⟨0, _⟩ => rfl | ⟨1, _⟩ => rfl)
  rw [e', len_col]
  rfl

/-- FIRST RESULT: the contraction of the scaled rows with the scaled columns is the logits. -/
theorem raw_eq (x0 : FVec Ideal S4x4096x4096 .f32) (x1 : FVec Ideal S4096x64 .f32) :
    val_main_v10 (F := Ideal) x0 x1 = raw x0 x1 := by
  funext i
  obtain ⟨b, s, e, rfl⟩ : ∃ (b : Fin 4) (s : Fin 4096) (e : Fin 64), i = ix3 b s e := ⟨i 0, i 1, i 2, eq_ix3 i⟩
  rw [val_main_v10_apply]
  show _ = dot (unit (row x0 b s)) (unit (col x1 e))
  unfold dot
  refine Finset.sum_congr rfl fun k _ => ?_
  have el : lidx_main_v10 (ix3 b s e) k = ix3 b s k :=
    funext fun a => Fin.ext (by match a with | ⟨0, _⟩ => rfl | ⟨1, _⟩ => rfl | ⟨2, _⟩ => rfl)
  have er : ridx_main_v10 (ix3 b s e) k = ix2 k e :=
    funext fun a => Fin.ext (by match a with | ⟨0, _⟩ => rfl | ⟨1, _⟩ => rfl)
  rw [el, er, unit_row, unit_col]

/-- SECOND RESULT: one over one plus the exponential of the negated logit is the logistic function of the logit. -/
theorem scaled_eq (x0 : FVec Ideal S4x4096x4096 .f32) (x1 : FVec Ideal S4096x64 .f32) :
    val_main_v16 (F := Ideal) x0 x1 = scaled x0 x1 := by
  funext i
  show Ideal.div (val_main_v15 (F := Ideal) i) (val_main_v13 (F := Ideal) i + Ideal.exp (-(val_main_v10 (F := Ideal) x0 x1 i)))
    = Ideal.logistic (raw x0 x1 i)
  rw [val_main_v15_apply, val_main_v13_apply, raw_eq]
  show Ideal.div (Ideal.ofBits .f32 0x3F800000#32) (Ideal.ofBits .f32 0x3F800000#32 + _) = _
  rw [one_f32]
  rfl

/-- THIRD RESULT: the same expansion for the gate of the entry's expert, the difference, the clip at zero. -/
theorem act_eq (x0 : FVec Ideal S4x4096x4096 .f32) (x1 : FVec Ideal S4096x64 .f32) (x2 : FVec Ideal S64 .f32) :
    val_main_v26 (F := Ideal) x0 x1 x2 = act x0 x1 x2 := by
  funext i
  obtain ⟨b, s, e, rfl⟩ : ∃ (b : Fin 4) (s : Fin 4096) (e : Fin 64), i = ix3 b s e := ⟨i 0, i 1, i 2, eq_ix3 i⟩
  show max (val_main_v16 (F := Ideal) x0 x1 (ix3 b s e) - val_main_v24 (F := Ideal) x2 (ix3 b s e)) (val_main_call2_v0 (F := Ideal) (ix3 b s e))
    = max (scaled x0 x1 (ix3 b s e) - Ideal.logistic (x2 (ix1 e))) (Ideal.ofBits .f32 0x00000000#32)
  rw [scaled_eq, val_main_v24_apply, val_main_v23_apply, val_main_call2_v0_apply]
  have e1 : idx_main_v23 (idx_main_v24 (ix3 b s e)) = ix1 e :=
    funext fun a => Fin.ext (by match a with | ⟨0, _⟩ => rfl)
  rw [e1]
  show max (_ - Ideal.div (val_main_v21 (F := Ideal) (ix1 e)) (val_main_v19 (F := Ideal) (ix1 e) + Ideal.exp (-(x2 (ix1 e))))) _ = _
  rw [val_main_v21_apply, val_main_v19_apply]
  show max (_ - Ideal.div (Ideal.ofBits .f32 0x3F800000#32) (Ideal.ofBits .f32 0x3F800000#32 + _)) _ = _
  rw [one_f32]
  rfl

end Cert.GateRef

end
-- ==== Proof.GateHost.lean ====
/-
  What the region finds in the two arrays the host prepares before it.

  Before the region the program divides each column of the similarity matrix by its clipped length and
  changes the format of the result — the same operations, on the same argument, as the reference's scaled
  matrix, and the change of format changes nothing on the extended reals — and it recasts the 64 gates as a
  [1, 64] row.
-/
import proofs.«150905_j54185307407176_1_alg».proof.Proof.Gen.KernelIdeal.Frame
import proofs.«150905_j54185307407176_1_alg».proof.Proof.GateSpec
import proofs.«150905_j54185307407176_1_alg».proof.Proof.GateRef
import Idealize.ShloMosaic.Lib.Pipeline.Value
import Idealize.ShloMosaic.Lib.StableHlo.Run
import Idealize.ShloMosaic.Lib.ValueIdx

noncomputable section

namespace Cert.GateHost

open Idealize.ShloMosaic Idealize.ShloMosaic.TcCoe Idealize.ShloMosaic.ValueIdx Idealize.SL.Sem
open Cert.KernelIdeal Cert.KernelIdeal.Gen Cert.GateSpec

variable (m : (ℓ : Loc nD τ sig) → Buf (Elt Ideal) ℓ)

/-- The three argument arrays on core `c`, as launched. -/
abbrev hid (c : Dev nD) : FVec Ideal ⟨3, ![4, 4096, 4096]⟩ .f32 := m ((c : Thread nD τ).loc main_arg0)
abbrev sim (c : Dev nD) : FVec Ideal ⟨2, ![4096, 64]⟩ .f32 := m ((c : Thread nD τ).loc main_arg1)
abbrev gat (c : Dev nD) : FVec Ideal ⟨1, ![64]⟩ .f32 := m ((c : Thread nD τ).loc main_arg2)

/-- The matrix the region stages: entry (h, e) is column e of the similarity matrix divided by its clipped
    length, at h. -/
theorem staged_weights (c : Dev nD) (h : Fin 4096) (e : Fin 64) :
    (V m c main_v8 : S4096x64.Idx → EReal) (ix2 h e) = unit (col (sim m c) e) h := by
  have hv : @Eq (FVec Ideal S4096x64 .bf16) (V m c main_v8)
      (truncf .bf16 (Cert.ReferenceIdeal.Read.val_main_v9 (F := Ideal) (sim m c)) bitsLt_bf16_f32) := by
    dsimp only [Gen.V, Gen.hostOps0]; after_results; rfl
  rw [hv]
  exact Cert.GateRef.unit_col (sim m c) h e

/-- The gates the region stages: the [64] vector recast as one row, entry (0, e) the gate of expert e. -/
theorem staged_gates (c : Dev nD) (e : Fin 64) :
    (V m c main_v9 : S1x64.Idx → EReal) (ix2 (0 : Fin 1) e) = gat m c (ix1 e) := by
  have hv : @Eq (FVec Ideal S1x64 .f32) (V m c main_v9) (shapeCast S1x64 (gat m c) shapeCasts_S64_S1x64) := by
    dsimp only [Gen.V, Gen.hostOps0]; after_results; rfl
  rw [hv]
  exact shapeCast_apply (gat m c) shapeCasts_S64_S1x64 (ix2 (0 : Fin 1) e) (ix1 e) (by
    rw [Shape.rowMajor_val_one, Shape.rowMajor_val_two]
    show e.val = 0 * 64 + e.val
    omega)

end Cert.GateHost

end
-- ==== Proof.LibKeepdims.lean ====
/-
  Two layout operations read at an index, in the column ("keepdims") forms a row reduction that keeps its axis
  produces: a vector of length `a` recast as an `[a, 1]` column, and an `[a, 1]` column broadcast along its unit
  axis to `[a, b]`.  Both are stated over indices built from literal coordinates.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` vector cast to an `[a, 1]` column reads, at `(i, u)`, the vector at `i`, whatever the unit
    coordinate `u`: both positions have the same row-major offset `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.GateLogits.lean ====
/-
  The block of logits the kernel body computes, read at one entry.

  The body holds 256 rows of the hidden states (a [1, 256, 4096] block with its unit axis cast away) and the
  whole scaled similarity matrix.  It sums the squares of each row along the lanes, takes the square root,
  clips it below, divides the row by the result, and multiplies the 256 scaled rows into the matrix.  At entry
  (r, e) that is the inner product of row r, divided by its clipped length, with column e of the matrix.
-/
import proofs.«150905_j54185307407176_1_alg».proof.Proof.Gen.KernelIdeal.Skeleton
import proofs.«150905_j54185307407176_1_alg».proof.Proof.GateSpec
import proofs.«150905_j54185307407176_1_alg».proof.Proof.LibKeepdims
import Idealize.ShloMosaic.Lib.Pipeline.Value
import Idealize.ShloMosaic.Lib.ValueIdx
import Idealize.ShloMosaic.PureOps.Ideal.Laws

noncomputable section

open scoped BigOperators

namespace Cert.GateLogits

open Idealize.ShloMosaic Idealize.ShloMosaic.ValueIdx Cert.KernelIdeal Cert.KernelIdeal.Gen Cert.GateSpec Cert.LibKeepdims

/-- Casting the leading unit axis of a [1, 256, 4096] block away keeps row-major order: entry (r, h) of the
    result is entry (0, r, h) of the block. -/
theorem squeeze_apply (P0 : FVec Ideal S1x256x4096 .f32) (r : Fin 256) (h : Fin 4096) :
    shapeCast S256x4096 P0 shapeCasts_S1x256x4096_S256x4096 (ix2 r h) = P0 (ix3 (0 : Fin 1) r h) :=
  shapeCast_apply P0 _ (ix2 r h) (ix3 (0 : Fin 1) r h) (by
    rw [Shape.rowMajor_val_three, Shape.rowMajor_val_two]
    show (0 * 256 + r.val) * 4096 + h.val = r.val * 4096 + h.val
    omega)

/-- The lane sum of a row's squares: at row r, the sum over the 4096 lanes of the squared entries. -/
theorem rowSq_apply (v : FVec Ideal S256x4096 .f32) (r : Fin 256) :
    multiReduction (F := Ideal) .add [1] S256 (mulf v v) 0x00000000#32 reduces_S256x4096_S256 (.inl rfl) rfl (ix1 r)
      = ∑ h : Fin 4096, v (ix2 r h) * v (ix2 r h) := by
  refine (Ideal.multiReduction_add_single (mulf v v) 0x00000000#32 reduces_S256x4096_S256 (.inl rfl) rfl (ix1 r)).trans ?_
  refine Finset.sum_congr rfl fun (k : Fin 4096) _ => ?_
  have e : reduces_S256x4096_S256.lift (ix1 r) k = ix2 r k :=
    funext fun a => Fin.ext (by match a with | ⟨0, _⟩ => rfl | ⟨1, _⟩ => rfl)
  show v (reduces_S256x4096_S256.lift (ix1 r) k) * v (reduces_S256x4096_S256.lift (ix1 r) k) = _
  rw [e]

/-- A row divided by its clipped length, as the body computes it: the lane sum kept as a column, its square
    root clipped below, the column spread back along the lanes, the quotient, and the change of format (which
    changes nothing on the extended reals). -/
theorem scaledRow_apply (v : FVec Ideal S256x4096 .f32) (r : Fin 256) (h : Fin 4096) :
    (truncf .bf16 (divf v (broadcastTo S256x4096 (maximumf (sqrt (shapeCast S256x1
        (multiReduction (F := Ideal) .add [1] S256 (mulf v v) 0x00000000#32 reduces_S256x4096_S256 (.inl rfl) rfl)
        shapeCasts_S256_S256x1)) (broadcast S256x1 (Scalar.ofBits (F := Ideal) .f32 0x2B8CBCCC#32)))
        broadcasts_S256x1_S256x4096)) bitsLt_bf16_f32 : FVec Ideal S256x4096 .bf16) (ix2 r h)
      = unit (fun h' => v (ix2 r h')) h := by
  show Ideal.div (v (ix2 r h)) (broadcastTo S256x4096 _ broadcasts_S256x1_S256x4096 (ix2 r h)) = _
  rw [broadcastTo_a1_ab_apply]
  show Ideal.div (v (ix2 r h)) (max (Ideal.sqrt (shapeCast S256x1 _ shapeCasts_S256_S256x1 (ix2 r (0 : Fin 1)))) eps) = _
  rw [shapeCast_a_a1_apply, rowSq_apply]
  rfl

/-! The operand indices of the product at output index i and contraction index q: the left operand is read at
    (row of i, q), the right at (q, column of i). -/

theorem lhs0 (i : S256x64.Idx) (q : dot_S256x4096_S4096x64_S256x64_1_0_0_1_n_n.contr.Idx) : (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide),
    dif_pos (show (0 : Fin S256x4096.rank) ∈ dot_S256x4096_S4096x64_S256x64_1_0_0_1_n_n.lhsNonContracting by decide)]
  rfl
theorem lhs1 (i : S256x64.Idx) (q : dot_S256x4096_S4096x64_S256x64_1_0_0_1_n_n.contr.Idx) : (dot_S256x4096_S4096x64_S256x64_1_0_0_1_n_n.lhsIdx i q 1).val = (q ⟨0, by decide⟩).val :=
  dot_S256x4096_S4096x64_S256x64_1_0_0_1_n_n.lhsIdx_val_of_single rfl i q
theorem rhs0 (i : S256x64.Idx) (q : dot_S256x4096_S4096x64_S256x64_1_0_0_1_n_n.contr.Idx) : (dot_S256x4096_S4096x64_S256x64_1_0_0_1_n_n.rhsIdx i q 0).val = (q ⟨0, by decide⟩).val :=
  dot_S256x4096_S4096x64_S256x64_1_0_0_1_n_n.rhsIdx_val_of_single rfl i q
theorem rhs1 (i : S256x64.Idx) (q : dot_S256x4096_S4096x64_S256x64_1_0_0_1_n_n.contr.Idx) : (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide),
    dif_pos (show (1 : Fin S4096x64.rank) ∈ dot_S256x4096_S4096x64_S256x64_1_0_0_1_n_n.rhsNonContracting by decide)]
  rfl

/-- The matrix product into a zero accumulator: entry (r, e) is the sum over the contracted index of the
    left operand's row r against the right operand's column e. -/
theorem matmul_rows (A : FVec Ideal S256x4096 .bf16) (B : FVec Ideal S4096x64 .bf16) (r : Fin 256) (e : Fin 64) :
    matmul dot_S256x4096_S4096x64_S256x64_1_0_0_1_n_n none A B (constant S256x64 .f32 0x00000000#32) (ix2 r e) = ∑ h : Fin 4096, A (ix2 r h) * B (ix2 h e) := by
  refine (Ideal.matmul_constant_zero_apply dot_S256x4096_S4096x64_S256x64_1_0_0_1_n_n none A B (ix2 r e)).trans ?_
  rw [← Equiv.sum_comp (contrEquiv1 dot_S256x4096_S4096x64_S256x64_1_0_0_1_n_n 4096 rfl rfl).symm]
  refine Finset.sum_congr rfl fun k _ => ?_
  have hk := contrEquiv1_symm_val dot_S256x4096_S4096x64_S256x64_1_0_0_1_n_n 4096 rfl rfl k
  have el : dot_S256x4096_S4096x64_S256x64_1_0_0_1_n_n.lhsIdx (ix2 r e) ((contrEquiv1 dot_S256x4096_S4096x64_S256x64_1_0_0_1_n_n 4096 rfl rfl).symm k) = ix2 r k := funext fun a => Fin.ext (by
    match a with
    | ⟨0, _⟩ => exact lhs0 _ _
    | ⟨1, _⟩ => exact (lhs1 _ _).trans hk)
  have er : dot_S256x4096_S4096x64_S256x64_1_0_0_1_n_n.rhsIdx (ix2 r e) ((contrEquiv1 dot_S256x4096_S4096x64_S256x64_1_0_0_1_n_n 4096 rfl rfl).symm k) = ix2 k e := funext fun a => Fin.ext (by
    match a with
    | ⟨0, _⟩ => exact (rhs0 _ _).trans hk
    | ⟨1, _⟩ => exact rhs1 _ _)
  rw [el, er]

/-- THE LOGITS BLOCK AT AN ENTRY: row r of the block, divided by its clipped length, against column e of the
    matrix the body was given. -/
theorem logits_apply (P0 : FVec Ideal S1x256x4096 .f32) (P1 : FVec Ideal S4096x64 .bf16) (r : Fin 256) (e : Fin 64) :
    k0_pay1 (F := Ideal) P0 P1 (ix2 r e)
      = dot (unit (fun h => P0 (ix3 (0 : Fin 1) r h))) (fun h => P1 (ix2 h e)) := by
  unfold k0_pay1
  dsimp only
  refine (matmul_rows _ _ r e).trans ?_
  unfold dot
  refine Finset.sum_congr rfl fun h _ => ?_
  refine congrArg₂ (· * ·) ?_ ?_
  · refine (scaledRow_apply _ r h).trans ?_
    exact congrArg (fun v => unit v h) (funext fun h' => squeeze_apply P0 r h')
  · exact congrFun (shapeCast_self P1 _) (ix2 h e)

end Cert.GateLogits

end
-- ==== Proof.GateBlocks.lean ====
/-
  From what each grid point writes back to the three whole result arrays.

  The grid has 4 × 16 points; point (b, s) stages rows 256·s … 256·s + 255 of batch b of the hidden states,
  the whole scaled similarity matrix and the row of gates, and writes back the [1, 256, 64] blocks at batch b,
  positions 256·s … of the three results.  Entry (0, r, e) of a block is therefore the specified value at
  (b, 256·s + r, e); the 64 blocks tile each result, so each result array ends as the specified function.
-/
import proofs.«150905_j54185307407176_1_alg».proof.Proof.Gen.KernelIdeal.Value
import proofs.«150905_j54185307407176_1_alg».proof.Proof.GateSpec
import proofs.«150905_j54185307407176_1_alg».proof.Proof.GateLogits
import proofs.«150905_j54185307407176_1_alg».proof.Proof.GateHost
import Idealize.ShloMosaic.Lib.Pipeline.Value
import Idealize.ShloMosaic.Lib.ValueIdx

noncomputable section

namespace Cert.GateBlocks

open Idealize.ShloMosaic Idealize.ShloMosaic.TcCoe Idealize.ShloMosaic.ValueIdx Idealize.SL.Sem
open Idealize.ShloMosaic.Pipeline (Dat)
open Cert.KernelIdeal Cert.KernelIdeal.Gen Cert.GateSpec Cert.GateHost

variable (m : (ℓ : Loc nD τ sig) → Buf (Elt Ideal) ℓ) (ρ : Dev nD → PrngReg)

/-- The zero offset of a rank-3 access, as a constant function. -/
theorem hz3 : (![0, 0, 0] : Fin 3 → Nat) = fun _ => 0 := funext fun a => by fin_cases a <;> rfl
/-- The zero offset of a rank-2 access, as a constant function. -/
theorem hz2 : (![0, 0] : Fin 2 → Nat) = fun _ => 0 := funext fun a => by fin_cases a <;> rfl

/-! ## What the body leaves in each result's block, at an entry, over any three staged blocks -/

/-- The logits block at (0, r, e): row r of the staged hidden states, scaled, against column e of the staged matrix. -/
theorem out3_apply (x0 : FVec Ideal S1x256x4096 .f32) (x1 : FVec Ideal S4096x64 .bf16) (x2 : FVec Ideal S1x64 .f32)
    (r : Fin 256) (e : Fin 64) :
    out0_3 (F := Ideal) x0 x1 x2 (ix3 (0 : Fin 1) r e) = dot (unit (fun h => x0 (ix3 (0 : Fin 1) r h))) (fun h => x1 (ix2 h e)) := by
  unfold out0_3
  simp only [View.ld_unit_zero (S := S1x256x4096) hz3, View.ld_unit_zero (S := S4096x64) hz2]
  refine (Value.canon3_eq (F := Ideal) x0 x1 (ix3 (0 : Fin 1) r e)).trans ?_
  show k0_pay1 (F := Ideal) x0 x1 (Value.ix3_0 (ix3 (0 : Fin 1) r e)) = _
  have hx : Value.ix3_0 (ix3 (0 : Fin 1) r e) = ix2 r e :=
    funext fun a => Fin.ext (by match a with | ⟨0, _⟩ => rfl | ⟨1, _⟩ => rfl)
  rw [hx]
  exact Cert.GateLogits.logits_apply x0 x1 r e

/-- The second block: the logistic function of that logit. -/
theorem out4_apply (x0 : FVec Ideal S1x256x4096 .f32) (x1 : FVec Ideal S4096x64 .bf16) (x2 : FVec Ideal S1x64 .f32)
    (r : Fin 256) (e : Fin 64) :
    out0_4 (F := Ideal) x0 x1 x2 (ix3 (0 : Fin 1) r e)
      = Ideal.logistic (dot (unit (fun h => x0 (ix3 (0 : Fin 1) r h))) (fun h => x1 (ix2 h e))) := by
  unfold out0_4
  simp only [View.ld_unit_zero (S := S1x256x4096) hz3, View.ld_unit_zero (S := S4096x64) hz2]
  refine (Value.canon4_eq (F := Ideal) x0 x1 (ix3 (0 : Fin 1) r e)).trans ?_
  show Ideal.logistic (k0_pay1 (F := Ideal) x0 x1 (Value.ix4_0 (ix3 (0 : Fin 1) r e))) = _
  have hx : Value.ix4_0 (ix3 (0 : Fin 1) r e) = ix2 r e :=
    funext fun a => Fin.ext (by match a with | ⟨0, _⟩ => rfl | ⟨1, _⟩ => rfl)
  rw [hx, Cert.GateLogits.logits_apply x0 x1 r e]

/-- The third block: that value minus the logistic function of the staged gate of expert e, clipped below by zero. -/
theorem out5_apply (x0 : FVec Ideal S1x256x4096 .f32) (x1 : FVec Ideal S4096x64 .bf16) (x2 : FVec Ideal S1x64 .f32)
    (r : Fin 256) (e : Fin 64) :
    out0_5 (F := Ideal) x0 x1 x2 (ix3 (0 : Fin 1) r e)
      = max (Ideal.logistic (dot (unit (fun h => x0 (ix3 (0 : Fin 1) r h))) (fun h => x1 (ix2 h e)))
          - Ideal.logistic (x2 (ix2 (0 : Fin 1) e))) (Ideal.ofBits .f32 0x00000000#32) := by
  unfold out0_5
  simp only [View.ld_unit_zero (S := S1x256x4096) hz3, View.ld_unit_zero (S := S4096x64) hz2, View.ld_unit_zero (S := S1x64) hz2]
  refine (Value.canon5_eq (F := Ideal) x0 x1 x2 (ix3 (0 : Fin 1) r e)).trans ?_
  show max (Ideal.logistic (k0_pay1 (F := Ideal) x0 x1 (Value.ix5_0 (ix3 (0 : Fin 1) r e)))
      - Ideal.logistic (x2 (Value.ix5_1 (ix3 (0 : Fin 1) r e)))) (Ideal.ofBits .f32 0x00000000#32) = _
  have hx : Value.ix5_0 (ix3 (0 : Fin 1) r e) = ix2 r e :=
    funext fun a => Fin.ext (by match a with | ⟨0, _⟩ => rfl | ⟨1, _⟩ => rfl)
  have hg : Value.ix5_1 (ix3 (0 : Fin 1) r e) = ix2 (0 : Fin 1) e :=
    funext fun a => Fin.ext (by match a with | ⟨0, _⟩ => rfl | ⟨1, _⟩ => rfl)
  rw [hx, hg, Cert.GateLogits.logits_apply x0 x1 r e]

/-! ## The index maps, decided once over the 64 grid points -/

/-- The hidden-state window moves with the result windows on batch and position and stays at lane block 0; the
    matrix and gate windows never move; the three result windows move together, within 4 batches and 16 position
    blocks. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 3) = win0_3.index t (0 : Fin 3) ∧ win0_4.index t (1 : Fin 3) = win0_3.index t (1 : Fin 3)
    ∧ win0_4.index t (2 : Fin 3) = 0
    ∧ win0_5.index t (0 : Fin 3) = win0_3.index t (0 : Fin 3) ∧ win0_5.index t (1 : Fin 3) = win0_3.index t (1 : Fin 3)
    ∧ win0_5.index t (2 : Fin 3) = 0
    ∧ win0_3.index t (0 : Fin 3) < 4 ∧ win0_3.index t (1 : Fin 3) < 16 ∧ win0_3.index t (2 : Fin 3) = 0 :=
  (by decide +kernel : ∀ t : Fin grid0.N, _)

/-- Every (batch, position block) is some point's. -/
theorem idx_onto : ∀ (q0 : Fin 4) (q1 : Fin 16), ∃ t : Fin cfg0.N, win0_3.index t = ![q0.val, q1.val, 0] :=
  (by decide +kernel : ∀ (q0 : Fin 4) (q1 : Fin 16), ∃ t : Fin grid0.N, win0_3.index t = ![q0.val, q1.val, 0])

/-! ## The staged blocks read off the arrays the region finds -/

/-- Entry (0, r, h) of the hidden-state block at point `t` is the argument at (batch of `t`, 256·(position block of `t`) + r, h). -/
theorem hidden_block (c : Dev nD) (t : Fin cfg0.N) (r : Fin 256) (h : Fin 4096) (b : Fin 4) (s : Fin 4096)
    (hb : b.val = win0_3.index t (0 : Fin 3)) (hs : s.val = win0_3.index t (1 : Fin 3) * 256 + r.val) :
    (iblk m c 0 t : S1x256x4096.Idx → EReal) (ix3 (0 : Fin 1) r h) = hid m c (ix3 b s h) := by
  obtain ⟨e0, e1, e2, _⟩ := idx_facts t
  unfold iblk
  rw [View.read_apply]
  show V m c main_arg0 _ = _
  rw [V_main_arg0]
  refine congrArg (hid m c) (funext fun a => Fin.ext ?_)
  match a with
  | ⟨0, _⟩ => show win0_0.index t (0 : Fin 3) * 1 + 1 * 0 = b.val; omega
  | ⟨1, _⟩ => show win0_0.index t (1 : Fin 3) * 256 + 1 * r.val = s.val; omega
  | ⟨2, _⟩ => show win0_0.index t (2 : Fin 3) * 4096 + 1 * h.val = h.val; omega

/-- The matrix block at every point is the whole staged matrix. -/
theorem weights_block (c : Dev nD) (t : Fin cfg0.N) (h : Fin 4096) (e : Fin 64) :
    (iblk m c 1 t : S4096x64.Idx → EReal) (ix2 h e) = (V m c main_v8 : S4096x64.Idx → EReal) (ix2 h e) := by
  obtain ⟨_, _, _, e3, e4, _⟩ := idx_facts t
  unfold iblk
  rw [View.read_apply]
  show (V m c main_v8 : S4096x64.Idx → EReal) _ = _
  refine congrArg (V m c main_v8 : S4096x64.Idx → EReal) (funext fun a => Fin.ext ?_)
  match a with
  | ⟨0, _⟩ => show win0_1.index t (0 : Fin 2) * 4096 + 1 * h.val = h.val; omega
  | ⟨1, _⟩ => show win0_1.index t (1 : Fin 2) * 64 + 1 * e.val = e.val; omega

/-- The gate block at every point is the whole staged row of gates. -/
theorem gates_block (c : Dev nD) (t : Fin cfg0.N) (e : Fin 64) :
    (iblk m c 2 t : S1x64.Idx → EReal) (ix2 (0 : Fin 1) e) = (V m c main_v9 : S1x64.Idx → EReal) (ix2 (0 : Fin 1) e) := by
  obtain ⟨_, _, _, _, _, e5, e6, _⟩ := idx_facts t
  unfold iblk
  rw [View.read_apply]
  show (V m c main_v9 : S1x64.Idx → EReal) _ = _
  refine congrArg (V m c main_v9 : S1x64.Idx → EReal) (funext fun a => Fin.ext ?_)
  match a with
  | ⟨0, _⟩ => show win0_2.index t (0 : Fin 2) * 1 + 1 * 0 = 0; omega
  | ⟨1, _⟩ => show win0_2.index t (1 : Fin 2) * 64 + 1 * e.val = e.val; omega

/-! ## A block's entry is the specified value at the array index under it -/

/-- The logit the body forms from the blocks staged at point `t` is the specified logit. -/
theorem logit_at (c : Dev nD) (t : Fin cfg0.N) (r : Fin 256) (e : Fin 64) (b : Fin 4) (s : Fin 4096)
    (hb : b.val = win0_3.index t (0 : Fin 3)) (hs : s.val = win0_3.index t (1 : Fin 3) * 256 + r.val) :
    dot (unit (fun h => (iblk m c 0 t : S1x256x4096.Idx → EReal) (ix3 (0 : Fin 1) r h)))
        (fun h => (iblk m c 1 t : S4096x64.Idx → EReal) (ix2 h e))
      = logit (hid m c) (sim m c) b s e := by
  have h0 : (fun h => (iblk m c 0 t : S1x256x4096.Idx → EReal) (ix3 (0 : Fin 1) r h)) = row (hid m c) b s :=
    funext fun h => hidden_block m c t r h b s hb hs
  have h1 : (fun h => (iblk m c 1 t : S4096x64.Idx → EReal) (ix2 h e)) = unit (col (sim m c) e) :=
    funext fun h => (weights_block m c t h e).trans (staged_weights m c h e)
  exact congrArg₂ dot (congrArg unit h0) h1

/-- First result: the block entry is the specified logit at (b, s, e). -/
theorem entry3 (c : Dev nD) (t : Fin cfg0.N) (r : Fin 256) (e : Fin 64) (b : Fin 4) (s : Fin 4096)
    (hb : b.val = win0_3.index t (0 : Fin 3)) (hs : s.val = win0_3.index t (1 : Fin 3) * 256 + r.val) :
    dot (unit (fun h => (iblk m c 0 t : S1x256x4096.Idx → EReal) (ix3 (0 : Fin 1) r h)))
        (fun h => (iblk m c 1 t : S4096x64.Idx → EReal) (ix2 h e))
      = raw (hid m c) (sim m c) (ix3 b s e) :=
  logit_at m c t r e b s hb hs

/-- Second result: the logistic function of both sides of \`logit_at\`. -/
theorem entry4 (c : Dev nD) (t : Fin cfg0.N) (r : Fin 256) (e : Fin 64) (b : Fin 4) (s : Fin 4096)
    (hb : b.val = win0_3.index t (0 : Fin 3)) (hs : s.val = win0_3.index t (1 : Fin 3) * 256 + r.val) :
    Ideal.logistic (dot (unit (fun h => (iblk m c 0 t : S1x256x4096.Idx → EReal) (ix3 (0 : Fin 1) r h)))
        (fun h => (iblk m c 1 t : S4096x64.Idx → EReal) (ix2 h e)))
      = scaled (hid m c) (sim m c) (ix3 b s e) :=
  congrArg Ideal.logistic (logit_at m c t r e b s hb hs)

/-- Third result: the staged gate of expert e is the argument's gate e, and the rest is \`logit_at\`. -/
theorem entry5 (c : Dev nD) (t : Fin cfg0.N) (r : Fin 256) (e : Fin 64) (b : Fin 4) (s : Fin 4096)
    (hb : b.val = win0_3.index t (0 : Fin 3)) (hs : s.val = win0_3.index t (1 : Fin 3) * 256 + r.val) :
    max (Ideal.logistic (dot (unit (fun h => (iblk m c 0 t : S1x256x4096.Idx → EReal) (ix3 (0 : Fin 1) r h)))
        (fun h => (iblk m c 1 t : S4096x64.Idx → EReal) (ix2 h e)))
        - Ideal.logistic ((iblk m c 2 t : S1x64.Idx → EReal) (ix2 (0 : Fin 1) e))) (Ideal.ofBits .f32 0x00000000#32)
      = act (hid m c) (sim m c) (gat m c) (ix3 b s e) := by
  have hg : (iblk m c 2 t : S1x64.Idx → EReal) (ix2 (0 : Fin 1) e) = gat m c (ix1 e) :=
    (gates_block m c t e).trans (staged_gates m c e)
  rw [hg, logit_at m c t r e b s hb hs]
  rfl

/-! ## Each result array after the run -/

/-- Point `t` writes back block `t` of the logits. -/
theorem flushed3_eq (c : Dev nD) (t : Fin cfg0.N) :
    (dats m 0 c).flushed 3 t = ((cfg0.win 3).blk t).view.read (Elt Ideal) (raw (hid m c) (sim m c)) := by
  rw [Value.flushed3]
  show (out0_3 (iblk m c 0 t) (iblk m c 1 t) (iblk m c 2 t) : S1x256x64.Idx → EReal)
      = fun j : S1x256x64.Idx => raw (hid m c) (sim m c) (((cfg0.win 3).blk t).view.emb j)
  funext j
  obtain ⟨u, r, e, rfl⟩ : ∃ (u : Fin 1) (r : Fin 256) (e : Fin 64), j = ix3 u r e := ⟨j 0, j 1, j 2, eq_ix3 j⟩
  obtain rfl : u = 0 := Subsingleton.elim _ _
  obtain ⟨_, _, _, _, _, _, _, f40, f41, f42, f50, f51, f52, b0, b1, b2⟩ := idx_facts t
  have hi : ((cfg0.win 3).blk t).view.emb (ix3 (0 : Fin 1) r e)
      = ix3 (⟨win0_3.index t (0 : Fin 3), b0⟩ : Fin 4) (⟨win0_3.index t (1 : Fin 3) * 256 + r.val, by have := r.isLt; omega⟩ : Fin 4096) e :=
    funext fun a => Fin.ext (by
      match a with
      | ⟨0, _⟩ => show win0_3.index t (0 : Fin 3) * 1 + 1 * 0 = win0_3.index t (0 : Fin 3); omega
      | ⟨1, _⟩ => show win0_3.index t (1 : Fin 3) * 256 + 1 * r.val = win0_3.index t (1 : Fin 3) * 256 + r.val; omega
      | ⟨2, _⟩ => show win0_3.index t (2 : Fin 3) * 64 + 1 * e.val = e.val; omega)
  rw [hi]
  refine (out3_apply (iblk m c 0 t) (iblk m c 1 t) (iblk m c 2 t) r e).trans ?_
  exact entry3 m c t r e _ _ rfl rfl

/-- Every index of the array lies in some point's block: the one whose batch is the index's and whose
    position block holds the index's position. -/
theorem cover3 (i : S4x4096x64.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 64 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  obtain ⟨_, _, _, _, _, _, _, f40, f41, f42, f50, f51, f52, b0, b1, b2⟩ := idx_facts t
  refine ⟨t, flush0_3 t, ?_⟩
  show i ∈ ((View.whole main_v10_0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-- So after the run the array holds the logits. -/
theorem final3 (c : Dev nD) : (dats m 0 c).arrAt 3 cfg0.N = raw (hid m c) (sim m c) :=
  (dats m 0 c).arrAt_eq_of_cover 3 (raw (hid m c) (sim m c)) (fun t _ => flushed3_eq m c t) cover3

/-- Point `t` writes back block `t` of the logistic function of the logits. -/
theorem flushed4_eq (c : Dev nD) (t : Fin cfg0.N) :
    (dats m 0 c).flushed 4 t = ((cfg0.win 4).blk t).view.read (Elt Ideal) (scaled (hid m c) (sim m c)) := by
  rw [Value.flushed4]
  show (out0_4 (iblk m c 0 t) (iblk m c 1 t) (iblk m c 2 t) : S1x256x64.Idx → EReal)
      = fun j : S1x256x64.Idx => scaled (hid m c) (sim m c) (((cfg0.win 4).blk t).view.emb j)
  funext j
  obtain ⟨u, r, e, rfl⟩ : ∃ (u : Fin 1) (r : Fin 256) (e : Fin 64), j = ix3 u r e := ⟨j 0, j 1, j 2, eq_ix3 j⟩
  obtain rfl : u = 0 := Subsingleton.elim _ _
  obtain ⟨_, _, _, _, _, _, _, f40, f41, f42, f50, f51, f52, b0, b1, b2⟩ := idx_facts t
  have hi : ((cfg0.win 4).blk t).view.emb (ix3 (0 : Fin 1) r e)
      = ix3 (⟨win0_3.index t (0 : Fin 3), b0⟩ : Fin 4) (⟨win0_3.index t (1 : Fin 3) * 256 + r.val, by have := r.isLt; omega⟩ : Fin 4096) e :=
    funext fun a => Fin.ext (by
      match a with
      | ⟨0, _⟩ => show win0_4.index t (0 : Fin 3) * 1 + 1 * 0 = win0_3.index t (0 : Fin 3); omega
      | ⟨1, _⟩ => show win0_4.index t (1 : Fin 3) * 256 + 1 * r.val = win0_3.index t (1 : Fin 3) * 256 + r.val; omega
      | ⟨2, _⟩ => show win0_4.index t (2 : Fin 3) * 64 + 1 * e.val = e.val; omega)
  rw [hi]
  refine (out4_apply (iblk m c 0 t) (iblk m c 1 t) (iblk m c 2 t) r e).trans ?_
  exact entry4 m c t r e _ _ rfl rfl

/-- Every index of the array lies in some point's block: the one whose batch is the index's and whose
    position block holds the index's position. -/
theorem cover4 (i : S4x4096x64.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 64 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  obtain ⟨_, _, _, _, _, _, _, f40, f41, f42, f50, f51, f52, b0, b1, b2⟩ := idx_facts t
  refine ⟨t, flush0_4 t, ?_⟩
  show i ∈ ((View.whole main_v10_1).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 64 ≤ (i 2).val ∧ (i 2).val < win0_4.index t (2 : Fin 3) * 64 + 64; omega

/-- So after the run the array holds the logistic function of the logits. -/
theorem final4 (c : Dev nD) : (dats m 0 c).arrAt 4 cfg0.N = scaled (hid m c) (sim m c) :=
  (dats m 0 c).arrAt_eq_of_cover 4 (scaled (hid m c) (sim m c)) (fun t _ => flushed4_eq m c t) cover4

/-- Point `t` writes back block `t` of the clipped difference of the two logistic values. -/
theorem flushed5_eq (c : Dev nD) (t : Fin cfg0.N) :
    (dats m 0 c).flushed 5 t = ((cfg0.win 5).blk t).view.read (Elt Ideal) (act (hid m c) (sim m c) (gat m c)) := by
  rw [Value.flushed5]
  show (out0_5 (iblk m c 0 t) (iblk m c 1 t) (iblk m c 2 t) : S1x256x64.Idx → EReal)
      = fun j : S1x256x64.Idx => act (hid m c) (sim m c) (gat m c) (((cfg0.win 5).blk t).view.emb j)
  funext j
  obtain ⟨u, r, e, rfl⟩ : ∃ (u : Fin 1) (r : Fin 256) (e : Fin 64), j = ix3 u r e := ⟨j 0, j 1, j 2, eq_ix3 j⟩
  obtain rfl : u = 0 := Subsingleton.elim _ _
  obtain ⟨_, _, _, _, _, _, _, f40, f41, f42, f50, f51, f52, b0, b1, b2⟩ := idx_facts t
  have hi : ((cfg0.win 5).blk t).view.emb (ix3 (0 : Fin 1) r e)
      = ix3 (⟨win0_3.index t (0 : Fin 3), b0⟩ : Fin 4) (⟨win0_3.index t (1 : Fin 3) * 256 + r.val, by have := r.isLt; omega⟩ : Fin 4096) e :=
    funext fun a => Fin.ext (by
      match a with
      | ⟨0, _⟩ => show win0_5.index t (0 : Fin 3) * 1 + 1 * 0 = win0_3.index t (0 : Fin 3); omega
      | ⟨1, _⟩ => show win0_5.index t (1 : Fin 3) * 256 + 1 * r.val = win0_3.index t (1 : Fin 3) * 256 + r.val; omega
      | ⟨2, _⟩ => show win0_5.index t (2 : Fin 3) * 64 + 1 * e.val = e.val; omega)
  rw [hi]
  refine (out5_apply (iblk m c 0 t) (iblk m c 1 t) (iblk m c 2 t) r e).trans ?_
  exact entry5 m c t r e _ _ rfl rfl

/-- Every index of the array lies in some point's block: the one whose batch is the index's and whose
    position block holds the index's position. -/
theorem cover5 (i : S4x4096x64.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 64 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  obtain ⟨_, _, _, _, _, _, _, f40, f41, f42, f50, f51, f52, b0, b1, b2⟩ := idx_facts t
  refine ⟨t, flush0_5 t, ?_⟩
  show i ∈ ((View.whole main_v10_2).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 64 ≤ (i 2).val ∧ (i 2).val < win0_5.index t (2 : Fin 3) * 64 + 64; omega

/-- So after the run the array holds the clipped difference of the two logistic values. -/
theorem final5 (c : Dev nD) : (dats m 0 c).arrAt 5 cfg0.N = act (hid m c) (sim m c) (gat m c) :=
  (dats m 0 c).arrAt_eq_of_cover 5 (act (hid m c) (sim m c) (gat m c)) (fun t _ => flushed5_eq m c t) cover5

/-! ## The run, read -/

/-- Every weakly fair execution of the program ends with the three result arrays at the three specified
    functions of the argument arrays, and the arguments as launched. -/
theorem run : θ_run defs (onTc (τ := τ) (main (F := Ideal))) ⟨m, fun _ => 0, ρ⟩ fun r => ∀ c : Dev nD,
      r.2.mem ((c : Thread nD τ).loc main_v10_0) = raw (hid m c) (sim m c)
      ∧ r.2.mem ((c : Thread nD τ).loc main_v10_1) = scaled (hid m c) (sim m c)
      ∧ r.2.mem ((c : Thread nD τ).loc main_v10_2) = act (hid m c) (sim m c) (gat m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c),
      (h c).2.2.1.trans (final5 m c), (h c).2.2.2⟩)
    (Value.run_blocks m ρ)

end Cert.GateBlocks

end
-- ==== Proof.lean ====
/-
  A gating layer: every row of the hidden states (4 × 4096 rows of 4096 numbers) and every column of the
  similarity matrix (64 columns of 4096 numbers) is divided by its Euclidean length, the length clipped below by a
  small positive constant; the logit of (batch, position, expert) is the inner product of the scaled row with
  the scaled column; the second result is the logistic function of the logit; the third is that minus the logistic
  function of the expert's gate, clipped below by zero.

  On the extended reals the kernel and the reference compute this same function term by term: the same sums in
  the same index order, the same clip constant, a quotient by the clipped length on both sides, and a change of
  number format that changes nothing.  The one difference in spelling is the logistic function, which the kernel
  applies as one operation and the reference writes out as 1 / (1 + exp (-x)); on the extended reals these are one
  function by definition, at the infinities too.  No law of arithmetic that needs finite operands is used, so the
  precondition is never opened.

  The kernel tiles the (batch, position) plane by 4 × 16 blocks of 256 positions; each grid point computes its
  block of the three results from 256 rows, the whole scaled matrix and the gates, and the blocks tile the results.
-/
import proofs.«150905_j54185307407176_1_alg».proof.Defs
import proofs.«150905_j54185307407176_1_alg».proof.Proof.Gen.Kernel
import proofs.«150905_j54185307407176_1_alg».proof.Proof.Gen.Kernel.Frame
import proofs.«150905_j54185307407176_1_alg».proof.Proof.Gen.KernelIdeal
import proofs.«150905_j54185307407176_1_alg».proof.Proof.Gen.KernelIdeal.Frame
import proofs.«150905_j54185307407176_1_alg».proof.Proof.Gen.KernelIdeal.Value
import proofs.«150905_j54185307407176_1_alg».proof.Proof.Gen.ReferenceIdeal
import proofs.«150905_j54185307407176_1_alg».proof.Proof.Gen.ReferenceIdeal.Run
import proofs.«150905_j54185307407176_1_alg».proof.Proof.Gen.ReferenceIdeal.Read
import proofs.«150905_j54185307407176_1_alg».proof.Proof.Gen.Pre_finite_inputs
import proofs.«150905_j54185307407176_1_alg».proof.Proof.GateSpec
import proofs.«150905_j54185307407176_1_alg».proof.Proof.GateRef
import proofs.«150905_j54185307407176_1_alg».proof.Proof.GateHost
import proofs.«150905_j54185307407176_1_alg».proof.Proof.GateBlocks
import Idealize.ShloMosaic.Adequacy
import Idealize.ShloMosaic.Init

noncomputable section

namespace Cert.Proof

open Idealize.ShloMosaic Idealize.ShloMosaic.TcCoe Idealize.SL.Sem Cert.GateSpec Cert.GateHost

/-- The word-level kernel terminates without a fault and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says of the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the three arguments, both programs end with the three results at the specified
    functions of those arguments: the kernel block by block, the reference operation by operation. -/
theorem algebraic : Cert.algebraic_KernelIdeal_ReferenceIdeal := by
  intro m ρ m' ρ' _ hagree
  refine ⟨fun c => raw (hid m c) (sim m c), fun c => scaled (hid m c) (sim m c),
    fun c => act (hid m c) (sim m c) (gat m c), Cert.GateBlocks.run m ρ, ?_⟩
  refine (θ_run Cert.ReferenceIdeal.defs _ _).mono (fun _ h c => ?_) (Cert.ReferenceIdeal.Value.run (F := Ideal) m' ρ')
  obtain ⟨a0, a1, a2⟩ := hagree c
  refine ⟨(h c).1.trans ?_, (h c).2.1.trans ?_, (h c).2.2.1.trans ?_, (h c).2.2.2⟩
  · show _ = raw (hid m c) (sim m c)
    rw [Cert.ReferenceIdeal.Read.val_main_v10_eq, Cert.GateRef.raw_eq, a0, a1]
  · show _ = scaled (hid m c) (sim m c)
    rw [Cert.ReferenceIdeal.Read.val_main_v16_eq, Cert.GateRef.scaled_eq, a0, a1]
  · show _ = act (hid m c) (sim m c) (gat m c)
    rw [Cert.ReferenceIdeal.Read.val_main_v26_eq, Cert.GateRef.act_eq, a0, a1, a2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
